-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x24 : Shape := ⟨2, ![512, 24]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512x24 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512x24 : Shape := ⟨2, ![512, 24]⟩
abbrev S512 : Shape := ⟨1, ![512]⟩
abbrev S512x1 : Shape := ⟨2, ![512, 1]⟩
abbrev S1x512 : Shape := ⟨2, ![1, 512]⟩
abbrev S24x512 : Shape := ⟨2, ![24, 512]⟩
abbrev S1x1 : Shape := ⟨2, ![1, 1]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x24, .i32⟩
  | .hbm, ⟨2, _⟩ => ⟨S512x512, .f32⟩
  | .hbm, ⟨3, _⟩ => ⟨S512x512, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x512, .f32⟩
  | .local _ .vmem, ⟨1, _⟩ => ⟨S512x24, .i32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x1, .f32⟩
  | .local _ .vmem, ⟨9, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x24 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  reduces_S512x512_S512 : S512x512.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  inb_S512x24_S512x24_0_0 : ∀ a, (![0, 0] : Fin 2 → Nat) a + S512x24.size a ≤ S512x24.size a
  h_S512x24 : 0 < S512x24.numel
  transposes_S512x24_p1_0_S24x512 : S512x24.Transposes [1, 0] S24x512
  inb_S1x1_S1x1_0_0 : ∀ a, (![0, 0] : Fin 2 → Nat) a + S1x1.size a ≤ S1x1.size a
  h_S1x1 : 0 < S1x1.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512x1_S8x1 : S8x512x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  dot_S512x512_S512x512_S512x512_1_0_0_1_n_n_wf : DotDims.WF S512x512 S512x512 S512x512 [1] [0] [0] [1] [] []
  dot_S512x24_S24x512_S512x512_1_0_0_1_n_n_wf : DotDims.WF S512x24 S24x512 S512x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S512x512.size a
  hwx1_0 : ∀ i : grid1.Coords, EltTy.bits .f32 = 32 ∨ (Rect.block (s := S512x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512.size a ≤ S512x512.size a
  hwx1_1 : ∀ i : grid1.Coords, EltTy.bits .f32 = 32 ∨ (Rect.block (s := S512x512) S8x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x24_S24x512_S512x512_1_0_0_1_n_n : DotDims S512x24 S24x512 S512x512 where
  lhsContracting := [1]
  rhsContracting := [0]
  lhsNonContracting := [0]
  rhsNonContracting := [1]
  lhsBatch := []
  rhsBatch := []
  wf := dot_S512x24_S24x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0_0) true false (stage0_2 0) (sem0_2 0) (Memref.isWhole_whole _) (hstage0_2 0)

abbrev win0_3 : Pipeline.Window sig grid0 :=
  Pipeline.Window.whole (Memref.whole main_v0_1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S8x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x512 : Shape := ⟨2, ![512, 512]⟩
abbrev S512x24 : Shape := ⟨2, ![512, 24]⟩
abbrev S512x1x512 : Shape := ⟨3, ![512, 1, 512]⟩
abbrev S1x512x512 : Shape := ⟨3, ![1, 512, 512]⟩
abbrev S512x512x512 : Shape := ⟨3, ![512, 512, 512]⟩
abbrev S_ : Shape := ⟨0, ![]⟩
abbrev S24x512 : Shape := ⟨2, ![24, 512]⟩
abbrev S512x512x1 : Shape := ⟨3, ![512, 512, 1]⟩

abbrev nBuf : Space → Nat
  | .hbm => 66
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x24, .i32⟩
  | .hbm, ⟨2, _⟩ => ⟨S512x1x512, .f32⟩
  | .hbm, ⟨3, _⟩ => ⟨S1x512x512, .f32⟩
  | .hbm, ⟨4, _⟩ => ⟨S512x512x512, .f32⟩
  | .hbm, ⟨5, _⟩ => ⟨S512x512x512, .f32⟩
  | .hbm, ⟨6, _⟩ => ⟨S512x512x512, .f32⟩
  | .hbm, ⟨7, _⟩ => ⟨S512x512x512, .f32⟩
  | .hbm, ⟨8, _⟩ => ⟨S_, .f32⟩
  | .hbm, ⟨9, _⟩ => ⟨S512x512, .f32⟩
  | .hbm, ⟨10, _⟩ => ⟨S_, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .i1⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x24, .f32⟩
  | .hbm, ⟨28, _⟩ => ⟨S24x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .i1⟩
  | .hbm, ⟨33, _⟩ => ⟨S512x512, .f32⟩
  | .hbm, ⟨34, _⟩ => ⟨S512x512x1, .f32⟩
  | .hbm, ⟨35, _⟩ => ⟨S512x1x512, .f32⟩
  | .hbm, ⟨36, _⟩ => ⟨S_, .f32⟩
  | .hbm, ⟨37, _⟩ => ⟨S512x1x512, .f32⟩
  | .hbm, ⟨38, _⟩ => ⟨S512x1x512, .f32⟩
  | .hbm, ⟨39, _⟩ => ⟨S512x512x512, .f32⟩
  | .hbm, ⟨40, _⟩ => ⟨S512x512x512, .f32⟩
  | .hbm, ⟨41, _⟩ => ⟨S512x512x512, .f32⟩
  | .hbm, ⟨42, _⟩ => ⟨S512x512x1, .f32⟩
  | .hbm, ⟨43, _⟩ => ⟨S512x1x512, .f32⟩
  | .hbm, ⟨44, _⟩ => ⟨S_, .f32⟩
  | .hbm, ⟨45, _⟩ => ⟨S512x1x512, .f32⟩
  | .hbm, ⟨46, _⟩ => ⟨S512x1x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S512x512x512, .f32⟩
  | .hbm, ⟨51, _⟩ => ⟨S_, .f32⟩
  | .hbm, ⟨52, _⟩ => ⟨S_, .f32⟩
  | .hbm, ⟨53, _⟩ => ⟨S512x512x512, .f32⟩
  | .hbm, ⟨54, _⟩ => ⟨S512x512x512, .f32⟩
  | .hbm, ⟨55, _⟩ => ⟨S_, .f32⟩
  | .hbm, ⟨56, _⟩ => ⟨S512x512x512, .f32⟩
  | .hbm, ⟨57, _⟩ => ⟨S512x512x512, .i1⟩
  | .hbm, ⟨58, _⟩ => ⟨S512x512x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  bcast_S_S512x512 : S_.BroadcastsInDim S512x512 (![] : Fin 0 → Fin S512x512.rank)
  transposes_S512x24_S24x512_1_0 : S512x24.Transposes [1, 0] S24x512
  bcast_S512x512_S512x512x1_0_1 : S512x512.BroadcastsInDim S512x512x1 (![0, 1] : Fin 2 → Fin S512x512x1.rank)
  bcast_S_S512x1x512 : S_.BroadcastsInDim S512x1x512 (![] : Fin 0 → Fin S512x1x512.rank)
  bcast_S512x512x1_S512x512x512_0_1_2 : S512x512x1.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  dot_S512x24_S24x512_S512x512_1_0_0_1_n_n_wf : DotDims.WF S512x24 S24x512 S512x512 [1] [0] [0] [1] [] []

variable [Facts₀]

def dot_S512x24_S24x512_S512x512_1_0_0_1_n_n : DotDims S512x24 S24x512 S512x512 where
  lhsContracting := [1]
  rhsContracting := [0]
  lhsNonContracting := [0]
  rhsNonContracting := [1]
  lhsBatch := []
  rhsBatch := []
  wf := dot_S512x24_S24x512_S512x512_1_0_0_1_n_n_wf

class Facts : Prop extends Facts₀ where

variable [Facts]
-- ==== Proof.KernelRun.lean ====
import proofs.«154311_j50190987821742_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer holding what the five
    host operations after the second region compute from that region's two output arrays, and both argument arrays as
    launched. The execution is the chain of the two regions and the host stretch; the final state is read against the
    contents of every unscoped buffer after the last segment. -/
theorem run_result : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c)⟩)

/-- The result buffer after the host stretch: the second region's first output array (the sum), reshaped to a scalar,
    divided by its second output array (the count), reshaped, plus the constant the host adds. -/
theorem W3_result (c : Dev nD) : W3 m ρ c (Proc.devRef .tc main_v5)
    = Host.divf (shapeCast S_ ((dat1 (V1 m ρ) c).arrAt 2 cfg1.N) shapeCasts_S1x1_S_)
        (addf (shapeCast S_ ((dat1 (V1 m ρ) c).arrAt 3 cfg1.N) shapeCasts_S1x1_S_) (constant S_ .f32 0x24E69595#32)) := by
  rw [← W2_arr m ρ c 2, ← W2_arr m ρ c 3]
  show StableHlo.after hostOps2 (W2 m ρ c) (Proc.devRef .tc main_v5) = _
  after_results
  rfl

end Cert.KernelIdeal.RunValue

end
-- ==== Proof.AccumCases.lean ====
import proofs.«154311_j50190987821742_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]

theorem hz : (![0, 0] : Fin 2 → Nat) = fun _ => 0 := funext fun a => by fin_cases a <;> rfl

/-! ## What one grid point leaves in the two accumulators

The body keeps the running sum of the contributions in one 1×1 buffer and the running count in another. At the first
point it stores zero into both and then adds the block's sum and count; at every later point it adds them to what the
point before left. -/

/-- A later point: the sum buffer holding `xo2` ends at `xo2 + (the block's sum)`. -/
theorem later_sum (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : ¬cond1_0 i)
    (x0 x1 : Vec F S8x512 .f32) (xo2 xo3 : Vec F S1x1 .f32) :
    out1_B_2 c i a1 h1 a2 h2 a3 h3 a4 h4 hc x0 x1 xo2 xo3 = k1_pay1 (k1_pay7 xo2) (k1_pay8 x0 x1) := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, View.ld_unit_zero (S := S8x512) hz,
    View.ld_unit_zero (S := S1x1) hz]

/-- A later point: the count buffer holding `xo3` ends at `xo3 + (the block's count)`. -/
theorem later_count (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : ¬cond1_0 i)
    (x0 x1 : Vec F S8x512 .f32) (xo2 xo3 : Vec F S1x1 .f32) :
    out1_B_3 c i a1 h1 a2 h2 a3 h3 a4 h4 hc x0 x1 xo2 xo3 = k1_pay2 (k1_pay6 x0 x1) xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread, View.ld_unit_zero (S := S8x512) hz,
    View.ld_unit_zero (S := S1x1) hz]

/-- The first point: the sum buffer ends at `0 + (the block's sum)`, the zero being the one it has just stored. -/
theorem first_sum (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : cond1_0 i)
    (x0 x1 : Vec F S8x512 .f32) :
    out1_A_2 c i a1 h1 a2 h2 a3 h3 a4 h4 hc x0 x1 = k1_pay1 (k1_pay7 (k1_pay3 (F := F))) (k1_pay8 x0 x1) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread, View.ld_unit_zero (S := S8x512) hz]

/-- The first point: the count buffer ends at `0 + (the block's count)`. -/
theorem first_count (c : Dev nD) (i : grid1.Coords) (a1 : Memref sig .tc .vmem S8x512 .f32) (h1 : a1.IsWhole)
    (a2 : Memref sig .tc .vmem S8x512 .f32) (h2 : a2.IsWhole) (a3 : Memref sig .tc .vmem S1x1 .f32) (h3 : a3.IsWhole)
    (a4 : Memref sig .tc .vmem S1x1 .f32) (h4 : a4.IsWhole) (hc : cond1_0 i)
    (x0 x1 : Vec F S8x512 .f32) :
    out1_A_3 c i a1 h1 a2 h2 a3 h3 a4 h4 hc x0 x1 = k1_pay2 (k1_pay6 x0 x1) (k1_pay4 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread, View.ld_unit_zero (S := S8x512) hz]

end Cert.KernelIdeal.Accum

end
-- ==== Proof.AccumFold.lean ====
import proofs.«154311_j50190987821742_2_alg».proof.Proof.AccumCases

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (V : (c : Dev nD) → (b : Ref sig .tc) → Buf (Elt F) ((c : Thread nD τ).loc b))

/-! ## The two accumulators after each grid point -/

/-- The running sum and the running count after point `n`: at point 0 the stored zeros plus the first block's sum and
    count, then each later block's added to what the point before left. -/
def running (c : Dev nD) : (n : ℕ) → n < cfg1.N → Vec F S1x1 .f32 × Vec F S1x1 .f32
  | 0, h => (k1_pay1 (k1_pay7 (k1_pay3 (F := F))) (k1_pay8 (iblk1 V c 0 ⟨0, h⟩) (iblk1 V c 1 ⟨0, h⟩)),
             k1_pay2 (k1_pay6 (iblk1 V c 0 ⟨0, h⟩) (iblk1 V c 1 ⟨0, h⟩)) (k1_pay4 (F := F)))
  | n + 1, h => (k1_pay1 (k1_pay7 (running c n (Nat.lt_of_succ_lt h)).1) (k1_pay8 (iblk1 V c 0 ⟨n + 1, h⟩) (iblk1 V c 1 ⟨n + 1, h⟩)),
             k1_pay2 (k1_pay6 (iblk1 V c 0 ⟨n + 1, h⟩) (iblk1 V c 1 ⟨n + 1, h⟩)) (running c n (Nat.lt_of_succ_lt h)).2)

/-- What the two staging buffers hold after point `n` is the running pair: by induction on the point. -/
theorem outsAt_eq (c : Dev nD) : ∀ (n : ℕ) (h : n < cfg1.N), outsAt1 V c n h = running V c n h
  | 0, h => by
    rw [outsAt1_A V c ⟨0, h⟩ rfl, first_sum, first_count]
    rfl
  | n + 1, h => by
    have hN : cfg1.N = 64 := N_1
    have hB : ¬(⟨n + 1, h⟩ : Fin cfg1.N).val % 64 = 0 := by dsimp only; omega
    rw [outsAt1_B V c ⟨n + 1, h⟩ hB, later_sum, later_count]
    show (k1_pay1 (k1_pay7 (outsAt1 V c n _).1) _, k1_pay2 _ (outsAt1 V c n _).2) = _
    rw [outsAt_eq c n]
    rfl

end Cert.KernelIdeal.Accum

end
-- ==== Proof.RegionArrays.lean ====
import proofs.«154311_j50190987821742_2_alg».proof.Proof.AccumFold
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Accum

variable {F : FTy → Type} [FloatOps F]
variable (V : (c : Dev nD) → (b : Ref sig .tc) → Buf (Elt F) ((c : Thread nD τ).loc b))

/-! ## The first region: the distance and similarity matrices

The first region has no grid: its one point loads both argument arrays whole, and its two results are written back
whole. So its output arrays end as the body's two payloads of the whole argument arrays. -/

/-- The block of the float argument at the one point is the whole array. -/
theorem iblk0_source (c : Dev nD) (t : Fin cfg0.N) : (iblk0 V c 0 t : Vec F S512x512 .f32) = V c main_arg0 := by
  obtain rfl := fin_N0 t
  unfold iblk0
  have hz' : (fun a => win0_0.index t0_0 a * main_arg0.ty.shape.size a) = fun _ => 0 := funext fun a => by fin_cases a <;> decide
  exact Memref.read_access_unit_zero (Elt F) main_arg0 hz' (fun a => by rw [congrFun hz' a]; simp) (V c main_arg0)

/-- The block of the label argument at the one point is the whole array. -/
theorem iblk0_labels (c : Dev nD) (t : Fin cfg0.N) : (iblk0 V c 1 t : Vec F S512x24 .i32) = V c main_arg1 := by
  obtain rfl := fin_N0 t
  unfold iblk0
  have hz' : (fun a => win0_1.index t0_0 a * main_arg1.ty.shape.size a) = fun _ => 0 := funext fun a => by fin_cases a <;> decide
  exact Memref.read_access_unit_zero (Elt F) main_arg1 hz' (fun a => by rw [congrFun hz' a]; simp) (V c main_arg1)

/-- The first output array ends as the distance payload of the whole float argument. -/
theorem first_dist (c : Dev nD) : (dat0 V c).arrAt 2 cfg0.N = k0_pay1 (V c main_arg0) :=
  (dat0 V c).arrAt_eq_of_cover 2 (k0_pay1 (V c main_arg0)) (fun t _ => by
      obtain rfl := fin_N0 t
      show (cfg0.win 2).cut (grid0.coords t0_0) ((dat0 V c).after 2 t0_0) = _
      rw [after0_2]
      unfold out0_2
      rw [View.canon_unit_zero hz]
      simp only [View.ld_unit_zero (S := S512x512) hz]
      rw [iblk0_source]
      have hz' : (fun a => win0_2.index t0_0 a * main_v0_0.ty.shape.size a) = fun _ => 0 := funext fun a => by fin_cases a <;> decide
      exact (Memref.read_access_unit_zero (Elt F) main_v0_0 hz' (fun a => by rw [congrFun hz' a]; simp) (k0_pay1 (V c main_arg0))).symm)
    (fun i => ⟨t0_0, flush0_2 t0_0, by
      show i ∈ ((View.whole main_v0_0).slice (win0_2.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 512 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 512 from by decide +kernel]; omega⟩)

/-- The second output array ends as the similarity payload of the whole label argument. -/
theorem first_sim (c : Dev nD) : (dat0 V c).arrAt 3 cfg0.N = k0_pay2 (V c main_arg1) :=
  (dat0 V c).arrAt_eq_of_cover 3 (k0_pay2 (V c main_arg1)) (fun t _ => by
      obtain rfl := fin_N0 t
      show (cfg0.win 3).cut (grid0.coords t0_0) ((dat0 V c).after 3 t0_0) = _
      rw [after0_3]
      unfold out0_3
      rw [View.canon_unit_zero hz]
      simp only [View.ld_unit_zero (S := S512x24) hz]
      rw [iblk0_labels]
      have hz' : (fun a => win0_3.index t0_0 a * main_v0_1.ty.shape.size a) = fun _ => 0 := funext fun a => by fin_cases a <;> decide
      exact (Memref.read_access_unit_zero (Elt F) main_v0_1 hz' (fun a => by rw [congrFun hz' a]; simp) (k0_pay2 (V c main_arg1))).symm)
    (fun i => ⟨t0_0, flush0_3 t0_0, by
      show i ∈ ((View.whole main_v0_1).slice (win0_3.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 512 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 512 from by decide +kernel]; omega⟩)

/-! ## The second region: 64 blocks of 8 rows, two accumulators written back once

Point `t` of the second region reads rows `8t … 8t + 7` of both matrices; the two 1×1 outputs keep their block index
throughout, so they are written back after the last point only and end as the accumulators' last contents. -/

/-- The last point. -/
def tLast : Fin cfg1.N := ⟨63, by rw [show cfg1.N = 64 from N_1]; decide⟩

/-- Row `a` of point `t`'s block of a matrix is row `8 t + a` of the matrix. -/
theorem iblk1_dist (c : Dev nD) (t : Fin cfg1.N) (j : S8x512.Idx) (i : S512x512.Idx)
    (h0 : (i 0).val = 8 * t.val + (j 0).val) (h1 : (i 1).val = (j 1).val) :
    (iblk1 V c 0 t : Vec F S8x512 .f32) j = V c main_v0_0 i := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v0_0 _ = V c main_v0_0 i
  congr 1
  funext a
  apply Fin.ext
  match a with
  | ⟨0, _⟩ => show win1_0.index t 0 * 8 + 1 * (j 0).val = (i 0).val; rw [hi.1, h0]; omega
  | ⟨1, _⟩ => show win1_0.index t 1 * 512 + 1 * (j 1).val = (i 1).val; rw [hi.2, h1]; omega

theorem iblk1_sim (c : Dev nD) (t : Fin cfg1.N) (j : S8x512.Idx) (i : S512x512.Idx)
    (h0 : (i 0).val = 8 * t.val + (j 0).val) (h1 : (i 1).val = (j 1).val) :
    (iblk1 V c 1 t : Vec F S8x512 .f32) j = V c main_v0_1 i := by
  have hi : win1_1.index t 0 = t.val ∧ win1_1.index t 1 = 0 :=
    (by decide +kernel : ∀ t : Fin grid1.N, win1_1.index t 0 = t.val ∧ win1_1.index t 1 = 0) t
  unfold iblk1
  rw [View.read_apply]
  show V c main_v0_1 _ = V c main_v0_1 i
  congr 1
  funext a
  apply Fin.ext
  match a with
  | ⟨0, _⟩ => show win1_1.index t 0 * 8 + 1 * (j 0).val = (i 0).val; rw [hi.1, h0]; omega
  | ⟨1, _⟩ => show win1_1.index t 1 * 512 + 1 * (j 1).val = (i 1).val; rw [hi.2, h1]; omega

/-- The sum's array ends as the running sum after the last point. -/
theorem second_sum (c : Dev nD) : (dat1 V c).arrAt 2 cfg1.N = (running V c tLast.val tLast.isLt).1 :=
  (dat1 V c).arrAt_eq_of_cover 2 _ (fun t hf => by
      have hN : cfg1.N = 64 := N_1
      have h63 : t.val = 63 := by have := (flush1_2 t).mp hf; have := t.isLt; omega
      obtain rfl : t = tLast := Fin.ext h63
      show (cfg1.win 2).cut (grid1.coords tLast) ((dat1 V c).after 2 tLast) = _
      rw [after1_2, outsAt_eq]
      have hz' : (fun a => win1_2.index tLast a * main_v1_0.ty.shape.size a) = fun _ => 0 := funext fun a => by fin_cases a <;> decide
      exact (Memref.read_access_unit_zero (Elt F) main_v1_0 hz' (fun a => by rw [congrFun hz' a]; simp) _).symm)
    (fun i => ⟨tLast, (flush1_2 tLast).mpr rfl, by
      show i ∈ ((View.whole main_v1_0).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 1 from by decide +kernel]; omega⟩)

/-- The count's array ends as the running count after the last point. -/
theorem second_count (c : Dev nD) : (dat1 V c).arrAt 3 cfg1.N = (running V c tLast.val tLast.isLt).2 :=
  (dat1 V c).arrAt_eq_of_cover 3 _ (fun t hf => by
      have hN : cfg1.N = 64 := N_1
      have h63 : t.val = 63 := by have := (flush1_3 t).mp hf; have := t.isLt; omega
      obtain rfl : t = tLast := Fin.ext h63
      show (cfg1.win 3).cut (grid1.coords tLast) ((dat1 V c).after 3 tLast) = _
      rw [after1_3, outsAt_eq]
      have hz' : (fun a => win1_3.index tLast a * main_v1_1.ty.shape.size a) = fun _ => 0 := funext fun a => by fin_cases a <;> decide
      exact (Memref.read_access_unit_zero (Elt F) main_v1_1 hz' (fun a => by rw [congrFun hz' a]; simp) _).symm)
    (fun i => ⟨tLast, (flush1_3 tLast).mpr rfl, by
      show i ∈ ((View.whole main_v1_1).slice (win1_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_3.index tLast 0 * win1_3.size 0 ≤ (i 0 : Nat) ∧ (i 0 : Nat) < win1_3.index tLast 0 * win1_3.size 0 + win1_3.xsize (grid1.coords tLast) 0
                  rw [show win1_3.index tLast 0 * win1_3.size 0 = 0 from by decide +kernel, show win1_3.xsize (grid1.coords tLast) 0 = 1 from by decide +kernel]; omega
      | ⟨1, _⟩ => show win1_3.index tLast 1 * win1_3.size 1 ≤ (i 1 : Nat) ∧ (i 1 : Nat) < win1_3.index tLast 1 * win1_3.size 1 + win1_3.xsize (grid1.coords tLast) 1
                  rw [show win1_3.index tLast 1 * win1_3.size 1 = 0 from by decide +kernel, show win1_3.xsize (grid1.coords tLast) 1 = 1 from by decide +kernel]; omega⟩)

end Cert.KernelIdeal.Arrays

end
-- ==== Proof.TripletSpec.lean ====
/-
  The mathematics of the triplet-margin loss, free of any program: what both programs compute, as functions on the
  extended reals, and the three laws that join their two arrangements.

  From a matrix `x` (512 rows) the pairwise distance `dist x i j` is the square root of the clipped squared distance
  of rows `i` and `j`, made exactly zero where the squared distance is zero.  From integer labels the similarity
  `sim l i j` is 1 when rows `i` and `j` of the label matrix have a positive inner product and 0 otherwise.  A triplet
  (anchor `i`, positive `p`, negative `n`) contributes the hinge of `d i p - d i n` when `s i p = 1` and `s i n = 0`,
  and the loss is the sum of the contributions over the number of contributions above a threshold.

  The laws: (1) for real rows, `∑ (a - b)² = ∑ a² + ∑ b² - 2 ∑ a b`; (2) a 0/1 factor moves inside a hinge,
  `m · max a 0 = max 0 (m · a)`; (3) a sum over a rank-3 index set is the triple sum over its coordinates, and a sum
  over 512 rows is the sum over 64 blocks of 8 rows.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx

/-! ## Index sets -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `8 t + a` of 512, for block `t` of 64 and row `a` of 8 within the block. -/
def blockRow (t : Fin 64) (a : Fin 8) : Fin 512 := ⟨8 * t.val + a.val, by have := t.isLt; have := a.isLt; omega⟩

/-- The 512 rows are the 64 blocks of 8 rows. -/
def blockEquiv : Fin 64 × Fin 8 ≃ Fin 512 where
  toFun p := blockRow p.1 p.2
  invFun r := (⟨r.val / 8, by have := r.isLt; omega⟩, ⟨r.val % 8, Nat.mod_lt _ (by decide)⟩)
  left_inv p := by
    obtain ⟨t, a⟩ := p
    have := t.isLt; have := a.isLt
    apply Prod.ext <;> apply Fin.ext <;> simp only [blockRow] <;> omega
  right_inv r := by apply Fin.ext; simp only [blockRow]; omega

/-- A sum over the rows is the sum over the blocks of the sums over each block's rows. -/
theorem sum_rows_blocks {M : Type*} [AddCommMonoid M] (f : Fin 512 → M) :
    ∑ r, f r = ∑ t : Fin 64, ∑ a : Fin 8, f (blockRow t a) := by
  rw [← Equiv.sum_comp blockEquiv f, Fintype.sum_prod_type]
  rfl

/-! ## Constants and one-bit words -/

/-- The threshold both programs spell `1e-16`: the same binary32 word on both sides, never evaluated. -/
def eps : EReal := Ideal.ofBits .f32 0x24E69595#32

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The binary32 word of `+inf` denotes the top element. -/
theorem ofBits_inf : Ideal.ofBits .f32 0x7F800000#32 = ⊤ := by
  simp [Ideal.ofBits, Ideal.ieee]

/-- A one-bit word as a number: 0 or 1. -/
def bit (b : BitVec 1) : EReal := ((b.toNat : ℝ) : EReal)

theorem bit_cases (b : BitVec 1) : bit b = 0 ∨ bit b = 1 := by
  rcases (by decide : ∀ b : BitVec 1, b = 0#1 ∨ b = 1#1) b with rfl | rfl
  · left; simp [bit]
  · right; simp [bit]

/-- A one-bit word widened without sign and read as a signed integer is the same number. -/
theorem toInt_setWidth (b : BitVec 1) : (((b.setWidth 32).toInt : ℝ) : EReal) = bit b := by
  have h : (b.setWidth 32).toInt = (b.toNat : ℤ) := by revert b; decide
  rw [h]; simp [bit]

/-! ## The functions -/

abbrev Mat (a b : Nat) : Type := (⟨2, ![a, b]⟩ : Shape).Idx → EReal

/-- The clipped squared distance of rows `i` and `j`. -/
def sqd (x : Mat 512 512) (i j : Fin 512) : EReal :=
  max 0 (0 + ∑ k : Fin 512, (x (ix2 i k) - x (ix2 j k)) * (x (ix2 i k) - x (ix2 j k)))

/-- From a clipped squared distance to the distance: the root, forced to exactly zero where the square is zero. -/
def rootOf (q : EReal) : EReal :=
  Ideal.sqrt (q + bit (Ideal.cmp .oeq q 0) * eps) * (1 - bit (Ideal.cmp .oeq q 0))

def dist (x : Mat 512 512) (i j : Fin 512) : EReal := rootOf (sqd x i j)

/-- Rows `i` and `j` of the labels share a label: their inner product is positive. -/
def sim (l : (⟨2, ![512, 24]⟩ : Shape).Idx → BitVec 32) (i j : Fin 512) : EReal :=
  bit (Ideal.cmp .ogt (∑ k : Fin 24, (((l (ix2 i k)).toInt : ℝ) : EReal) * (((l (ix2 j k)).toInt : ℝ) : EReal)) 0)

theorem sim_cases (l : (⟨2, ![512, 24]⟩ : Shape).Idx → BitVec 32) (i j : Fin 512) : sim l i j = 0 ∨ sim l i j = 1 := bit_cases _

/-- One triplet's contribution: the hinge of the distance gap, masked. -/
def trip (d s : Fin 512 → Fin 512 → EReal) (i p n : Fin 512) : EReal :=
  max 0 ((s i p * (1 - s i n)) * (d i p - 1 * d i n))

/-- Whether a contribution counts: above the threshold. -/
def counts (v : EReal) : EReal := bit (Ideal.cmp .ogt v eps)

/-- The loss: the contributions' sum over the count of those above the threshold (plus the threshold). -/
def loss (d s : Fin 512 → Fin 512 → EReal) : EReal :=
  Ideal.div (0 + ∑ i : Fin 512, ∑ p : Fin 512, ∑ n : Fin 512, trip d s i p n)
    ((0 + ∑ i : Fin 512, ∑ p : Fin 512, ∑ n : Fin 512, counts (trip d s i p n)) + eps)

/-! ## The laws -/

/-- The real sum as an extended real is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real rows the squared distance expands: `∑ (a - b)² = (∑ a² + ∑ b²) - 2 ∑ a b`. -/
theorem sq_expand {n : Nat} (a b : Fin n → ℝ) :
    ∑ k, ((a k : EReal) - (b k : EReal)) * ((a k : EReal) - (b k : EReal))
      = ((∑ k, (a k : EReal) * (a k : EReal)) + ∑ k, (b k : EReal) * (b k : EReal))
        - ((2 : ℝ) : EReal) * ∑ k, (a k : EReal) * (b k : EReal) := by
  simp only [← EReal.coe_sub, ← EReal.coe_mul, ← coe_sum, ← EReal.coe_add]
  congr 1
  rw [Finset.mul_sum, ← Finset.sum_add_distrib, ← Finset.sum_sub_distrib]
  exact Finset.sum_congr rfl fun k _ => by ring

/-- A row's squared distance to itself is zero. -/
theorem sq_self {n : Nat} (a : Fin n → ℝ) :
    ∑ k, ((a k : EReal) - (a k : EReal)) * ((a k : EReal) - (a k : EReal)) = 0 := by
  simp only [← EReal.coe_sub, ← EReal.coe_mul, ← coe_sum]
  simp

/-- The mask of a triplet is 0 or 1 when both similarities are. -/
theorem mask_cases {s1 s2 : EReal} (h1 : s1 = 0 ∨ s1 = 1) (h2 : s2 = 0 ∨ s2 = 1) :
    s1 * (1 - s2) = 0 ∨ s1 * (1 - s2) = 1 := by
  have e : (1 : EReal) - 1 = 0 := by rw [← EReal.coe_one, ← EReal.coe_sub]; simp
  rcases h1 with rfl | rfl <;> rcases h2 with rfl | rfl <;> simp [e]

/-- A 0/1 factor moves inside a hinge. -/
theorem mask_hinge {m a : EReal} (hm : m = 0 ∨ m = 1) : m * max a 0 = max 0 (m * a) := by
  rcases hm with rfl | rfl
  · simp
  · simp [max_comm]

end Cert.Triplet

end
-- ==== Proof.BlockSums.lean ====
import proofs.«154311_j50190987821742_2_alg».proof.Proof.Gen.KernelIdeal.Skeleton
import proofs.«154311_j50190987821742_2_alg».proof.Proof.TripletSpec
import Idealize.ShloMosaic.Lib.Pipeline.Value
import Idealize.ShloMosaic.Lib.ValueIdx
import Idealize.ShloMosaic.PureOps.Ideal.Laws

noncomputable section

namespace Cert.KernelIdeal.BlockSums

open Idealize.ShloMosaic Idealize.ShloMosaic.ValueIdx
open Cert.KernelIdeal Cert.KernelIdeal.Gen

/-! ## Layout operations of an 8-row block, read at explicit coordinates -/

section Layout
variable {α : Type}

/-- An [8, 512] block as [8, 512, 1]: element (a, p, 0) is element (a, p). -/
theorem cast_col (x : (⟨2, ![8, 512]⟩ : Shape).Idx → α) (h : (⟨2, ![8, 512]⟩ : Shape).ShapeCasts ⟨3, ![8, 512, 1]⟩)
    (a : Fin 8) (p : Fin 512) : shapeCast ⟨3, ![8, 512, 1]⟩ x h (ix3 a p (0 : Fin 1)) = x (ix2 a p) :=
  shapeCast_apply x h _ _ (by
    rw [Shape.rowMajor_val_two, Shape.rowMajor_val_three]
    show a.val * 512 + p.val = (a.val * 512 + p.val) * 1 + 0
    omega)

/-- An [8, 512] block as [8, 1, 512]: element (a, 0, n) is element (a, n). -/
theorem cast_row (x : (⟨2, ![8, 512]⟩ : Shape).Idx → α) (h : (⟨2, ![8, 512]⟩ : Shape).ShapeCasts ⟨3, ![8, 1, 512]⟩)
    (a : Fin 8) (n : Fin 512) : shapeCast ⟨3, ![8, 1, 512]⟩ x h (ix3 a (0 : Fin 1) n) = x (ix2 a n) :=
  shapeCast_apply x h _ _ (by
    rw [Shape.rowMajor_val_two, Shape.rowMajor_val_three]
    show a.val * 512 + n.val = (a.val * 1 + 0) * 512 + n.val
    omega)

/-- An [8, 1] column as [8, 1, 1]: element (a, 0, 0) is element (a, 0). -/
theorem cast_81 (x : (⟨2, ![8, 1]⟩ : Shape).Idx → α) (h : (⟨2, ![8, 1]⟩ : Shape).ShapeCasts ⟨3, ![8, 1, 1]⟩)
    (a : Fin 8) : shapeCast ⟨3, ![8, 1, 1]⟩ x h (ix3 a (0 : Fin 1) (0 : Fin 1)) = x (ix2 a (0 : Fin 1)) :=
  shapeCast_apply x h _ _ (by
    rw [Shape.rowMajor_val_two, Shape.rowMajor_val_three]
    show a.val * 1 + 0 = (a.val * 1 + 0) * 1 + 0
    omega)

/-- A [1, 1] cell as [1, 1, 1] and back: the one element. -/
theorem cast_11_111 (x : (⟨2, ![1, 1]⟩ : Shape).Idx → α) (h : (⟨2, ![1, 1]⟩ : Shape).ShapeCasts ⟨3, ![1, 1, 1]⟩) :
    shapeCast ⟨3, ![1, 1, 1]⟩ x h (ix3 (0 : Fin 1) (0 : Fin 1) (0 : Fin 1)) = x (ix2 (0 : Fin 1) (0 : Fin 1)) :=
  shapeCast_apply x h _ _ (by rw [Shape.rowMajor_val_two, Shape.rowMajor_val_three]; rfl)

theorem cast_111_11 (x : (⟨3, ![1, 1, 1]⟩ : Shape).Idx → α) (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_two, Shape.rowMajor_val_three]; rfl)

/-- A column [8, 512, 1] broadcast along the last axis: element (a, p, n) is element (a, p, 0). -/
theorem bcast_col (x : (⟨3, ![8, 512, 1]⟩ : Shape).Idx → α) (h : (⟨3, ![8, 512, 1]⟩ : Shape).Broadcasts ⟨3, ![8, 512, 512]⟩)
    (a : Fin 8) (p n : Fin 512) : broadcastTo ⟨3, ![8, 512, 512]⟩ x h (ix3 a p n) = x (ix3 a p (0 : Fin 1)) :=
  broadcastTo_apply x h _ _ (fun c => by
    match c with
    | ⟨0, _⟩ => show a.val = if (8 : ℕ) = 1 then 0 else a.val; rw [if_neg (by decide)]
    | ⟨1, _⟩ => show p.val = if (512 : ℕ) = 1 then 0 else p.val; rw [if_neg (by decide)]
    | ⟨2, _⟩ => show (0 : ℕ) = if (1 : ℕ) = 1 then 0 else n.val; rw [if_pos rfl])

/-- A row [8, 1, 512] broadcast along the middle axis: element (a, p, n) is element (a, 0, n). -/
theorem bcast_row (x : (⟨3, ![8, 1, 512]⟩ : Shape).Idx → α) (h : (⟨3, ![8, 1, 512]⟩ : Shape).Broadcasts ⟨3, ![8, 512, 512]⟩)
    (a : Fin 8) (p n : Fin 512) : broadcastTo ⟨3, ![8, 512, 512]⟩ x h (ix3 a p n) = x (ix3 a (0 : Fin 1) n) :=
  broadcastTo_apply x h _ _ (fun c => by
    match c with
    | ⟨0, _⟩ => show a.val = if (8 : ℕ) = 1 then 0 else a.val; rw [if_neg (by decide)]
    | ⟨1, _⟩ => show (0 : ℕ) = if (1 : ℕ) = 1 then 0 else p.val; rw [if_pos rfl]
    | ⟨2, _⟩ => show n.val = if (512 : ℕ) = 1 then 0 else n.val; rw [if_neg (by decide)])

end Layout

/-! ## The three sums of a block, one axis at a time -/

/-- The sum along the last axis of an [8, 512, 512] tensor, at (a, p). -/
theorem sum_last (v : FVec Ideal ⟨3, ![8, 512, 512]⟩ .f32) (h : (⟨3, ![8, 512, 512]⟩ : Shape).Reduces [2] ⟨2, ![8, 512]⟩)
    (hφ : FKind.Formats .f32) (hacc : (0x00000000#32 : BitVec 32) = FKind.add.neutral .f32 hφ) (a : Fin 8) (p : Fin 512) :
    multiReduction .add [2] ⟨2, ![8, 512]⟩ v 0x00000000#32 h hφ hacc (ix2 a p) = ∑ n : Fin 512, v (ix3 a p n) :=
  (Ideal.multiReduction_add_single v _ h hφ hacc (ix2 a p)).trans
    (Finset.sum_congr rfl fun n _ => congrArg v (funext fun d => Fin.ext (by
      match d with | ⟨0, _⟩ => rfl | ⟨1, _⟩ => rfl | ⟨2, _⟩ => rfl)))

/-- The sum along the middle axis of an [8, 512, 1] tensor, at (a, 0). -/
theorem sum_mid (v : FVec Ideal ⟨3, ![8, 512, 1]⟩ .f32) (h : (⟨3, ![8, 512, 1]⟩ : Shape).Reduces [1] ⟨2, ![8, 1]⟩)
    (hφ : FKind.Formats .f32) (hacc : (0x00000000#32 : BitVec 32) = FKind.add.neutral .f32 hφ) (a : Fin 8) :
    multiReduction .add [1] ⟨2, ![8, 1]⟩ v 0x00000000#32 h hφ hacc (ix2 a (0 : Fin 1)) = ∑ p : Fin 512, v (ix3 a p (0 : Fin 1)) :=
  (Ideal.multiReduction_add_single v _ h hφ hacc (ix2 a (0 : Fin 1))).trans
    (Finset.sum_congr rfl fun p _ => congrArg v (funext fun d => Fin.ext (by
      match d with | ⟨0, _⟩ => rfl | ⟨1, _⟩ => rfl | ⟨2, _⟩ => rfl)))

/-- The sum along the first axis of an [8, 1, 1] tensor, at (0, 0). -/
theorem sum_first (v : FVec Ideal ⟨3, ![8, 1, 1]⟩ .f32) (h : (⟨3, ![8, 1, 1]⟩ : Shape).Reduces [0] ⟨2, ![1, 1]⟩)
    (hφ : FKind.Formats .f32) (hacc : (0x00000000#32 : BitVec 32) = FKind.add.neutral .f32 hφ) :
    multiReduction .add [0] ⟨2, ![1, 1]⟩ v 0x00000000#32 h hφ hacc (ix2 (0 : Fin 1) (0 : Fin 1))
      = ∑ a : Fin 8, v (ix3 a (0 : Fin 1) (0 : Fin 1)) :=
  (Ideal.multiReduction_add_single v _ h hφ hacc (ix2 (0 : Fin 1) (0 : Fin 1))).trans
    (Finset.sum_congr rfl fun a _ => congrArg v (funext fun d => Fin.ext (by
      match d with | ⟨0, _⟩ => rfl | ⟨1, _⟩ => rfl | ⟨2, _⟩ => rfl)))

/-- The body's three reductions in a row — last axis, middle axis, first axis, each kept as a unit axis — leave the sum
    of all 8 × 512 × 512 entries in the one cell. -/
def total (v : FVec Ideal S8x512x512 .f32) : FVec Ideal S1x1x1 .f32 :=
  shapeCast S1x1x1 (multiReduction .add [0] S1x1 (shapeCast S8x1x1 (multiReduction .add [1] S8x1 (shapeCast S8x512x1
    (multiReduction .add [2] S8x512 v 0x00000000#32 reduces_S8x512x512_S8x512 (.inl rfl) rfl) shapeCasts_S8x512_S8x512x1)
    0x00000000#32 reduces_S8x512x1_S8x1 (.inl rfl) rfl) shapeCasts_S8x1_S8x1x1) 0x00000000#32 reduces_S8x1x1_S1x1 (.inl rfl) rfl)
    shapeCasts_S1x1_S1x1x1

theorem total_apply (v : FVec Ideal S8x512x512 .f32) :
    total v (ix3 (0 : Fin 1) (0 : Fin 1) (0 : Fin 1)) = ∑ a : Fin 8, ∑ p : Fin 512, ∑ n : Fin 512, v (ix3 a p n) := by
  unfold total
  refine (cast_11_111 _ _).trans ?_
  refine (sum_first _ _ _ _).trans (Finset.sum_congr rfl fun a _ => ?_)
  refine (cast_81 _ _ a).trans ?_
  refine (sum_mid _ _ _ _ a).trans (Finset.sum_congr rfl fun p _ => ?_)
  refine (cast_col _ _ a p).trans ?_
  exact sum_last _ _ _ _ a p

/-! ## One block's arithmetic, entry by entry -/

/-- One triplet's contribution as the block computes it from its 8 rows of distances `d` and of similarities `s`:
    the mask `s a p · (1 − s a n)` times the hinge of `d a p − d a n`. -/
def contrib (d s : (⟨2, ![8, 512]⟩ : Shape).Idx → EReal) (a : Fin 8) (p n : Fin 512) : EReal :=
  (s (ix2 a p) * (1 - s (ix2 a n))) * max (d (ix2 a p) - d (ix2 a n)) 0

theorem k1_pay5_apply (d s : Vec Ideal S8x512 .f32) (a : Fin 8) (p n : Fin 512) :
    k1_pay5 (F := Ideal) d s (ix3 a p n) = contrib d s a p n := by
  unfold k1_pay5 contrib
  simp only [mulf_apply, maximumf_apply, subf_apply, broadcast_apply, shapeCast_self, bcast_col, bcast_row, cast_col, cast_row]
  rw [Ideal.ofBits_def, Ideal.ofBits_def, Cert.Triplet.ofBits_one, Ideal.ofBits_zero_f32]

/-- The block's sum, in the one cell of its 1×1 result: all 8 × 512 × 512 contributions. -/
theorem k1_pay8_apply (d s : Vec Ideal S8x512 .f32) :
    k1_pay8 (F := Ideal) d s (ix2 (0 : Fin 1) (0 : Fin 1)) = ∑ a : Fin 8, ∑ p : Fin 512, ∑ n : Fin 512, contrib d s a p n := by
  have e : k1_pay8 (F := Ideal) d s = shapeCast S1x1 (total (k1_pay5 (F := Ideal) d s)) shapeCasts_S1x1x1_S1x1 := rfl
  rw [e]
  refine (cast_111_11 _ _).trans ?_
  rw [total_apply]
  exact Finset.sum_congr rfl fun a _ => Finset.sum_congr rfl fun p _ => Finset.sum_congr rfl fun n _ => k1_pay5_apply d s a p n

/-- The block's count, in the one cell of its 1×1×1 result: how many contributions exceed the threshold. -/
theorem k1_pay6_apply (d s : Vec Ideal S8x512 .f32) :
    k1_pay6 (F := Ideal) d s (ix3 (0 : Fin 1) (0 : Fin 1) (0 : Fin 1))
      = ∑ a : Fin 8, ∑ p : Fin 512, ∑ n : Fin 512, Cert.Triplet.counts (contrib d s a p n) := by
  have e : k1_pay6 (F := Ideal) d s = total (sitofp .f32 (extui 32 (cmpf .ogt (k1_pay5 (F := Ideal) d s)
      (broadcast S8x512x512 (Scalar.ofBits .f32 0x24E69595#32))) natLt_1_32)) := rfl
  rw [e, total_apply]
  refine Finset.sum_congr rfl fun a _ => Finset.sum_congr rfl fun p _ => Finset.sum_congr rfl fun n _ => ?_
  show ((((Ideal.cmp .ogt (k1_pay5 (F := Ideal) d s (ix3 a p n)) (Ideal.ofBits .f32 0x24E69595#32)).setWidth 32).toInt : ℝ) : EReal) = _
  rw [k1_pay5_apply, Cert.Triplet.toInt_setWidth]
  rfl

end Cert.KernelIdeal.BlockSums

end
-- ==== Proof.KernelTotal.lean ====
import proofs.«154311_j50190987821742_2_alg».proof.Proof.RegionArrays
import proofs.«154311_j50190987821742_2_alg».proof.Proof.BlockSums

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Accum Cert.KernelIdeal.Arrays Cert.KernelIdeal.BlockSums

variable (V : (c : Dev nD) → (b : Ref sig .tc) → Buf (Elt Ideal) ((c : Thread nD τ).loc b))

/-! ## The accumulators as sums over the blocks -/

/-- The one cell of a 1×1 buffer. -/
theorem cell (j : S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- Adding a block's sum to the carried sum, cell by cell. -/
theorem sum_step (acc : Vec Ideal S1x1 .f32) (bs : FVec Ideal S1x1 .f32) (j : S1x1.Idx) :
    k1_pay1 (F := Ideal) (k1_pay7 (F := Ideal) acc) bs j = acc j + bs j := by
  unfold k1_pay1 k1_pay7
  rw [shapeCast_self]
  rfl

/-- Adding a block's count (a 1×1×1 cell) to the carried count. -/
theorem count_step (acc : Vec Ideal S1x1 .f32) (bc : FVec Ideal S1x1x1 .f32) :
    k1_pay2 (F := Ideal) bc acc (ix2 (0 : Fin 1) (0 : Fin 1)) = acc (ix2 (0 : Fin 1) (0 : Fin 1)) + bc (ix3 (0 : Fin 1) (0 : Fin 1) (0 : Fin 1)) := by
  unfold k1_pay2
  show shapeCast S1x1 acc shapeCasts_S1x1_S1x1 (ix2 (0 : Fin 1) (0 : Fin 1)) + shapeCast S1x1 bc shapeCasts_S1x1x1_S1x1 (ix2 (0 : Fin 1) (0 : Fin 1)) = _
  rw [shapeCast_self, cast_111_11]

/-- The zeros the first point stores. -/
theorem zero_sum (j : S1x1.Idx) : k1_pay3 (F := Ideal) j = 0 := by
  unfold k1_pay3
  exact Ideal.ofBits_zero_f32
theorem zero_count (j : S1x1.Idx) : k1_pay4 (F := Ideal) j = 0 := by
  unfold k1_pay4
  exact Ideal.ofBits_zero_f32

/-- Block `t`'s sum of contributions (zero beyond the grid). -/
def blockSum (c : Dev nD) (t : ℕ) : EReal :=
  if h : t < cfg1.N then k1_pay8 (F := Ideal) (iblk1 V c 0 ⟨t, h⟩) (iblk1 V c 1 ⟨t, h⟩) (ix2 (0 : Fin 1) (0 : Fin 1)) else 0

/-- Block `t`'s count of contributions above the threshold (zero beyond the grid). -/
def blockCount (c : Dev nD) (t : ℕ) : EReal :=
  if h : t < cfg1.N then k1_pay6 (F := Ideal) (iblk1 V c 0 ⟨t, h⟩) (iblk1 V c 1 ⟨t, h⟩) (ix3 (0 : Fin 1) (0 : Fin 1) (0 : Fin 1)) else 0

theorem blockSum_pos (c : Dev nD) (t : ℕ) (h : t < cfg1.N) :
    blockSum V c t = k1_pay8 (F := Ideal) (iblk1 V c 0 ⟨t, h⟩) (iblk1 V c 1 ⟨t, h⟩) (ix2 (0 : Fin 1) (0 : Fin 1)) := dif_pos h
theorem blockCount_pos (c : Dev nD) (t : ℕ) (h : t < cfg1.N) :
    blockCount V c t = k1_pay6 (F := Ideal) (iblk1 V c 0 ⟨t, h⟩) (iblk1 V c 1 ⟨t, h⟩) (ix3 (0 : Fin 1) (0 : Fin 1) (0 : Fin 1)) := dif_pos h

/-- The running pair, one step unfolded. -/
theorem running_zero (c : Dev nD) (h : 0 < cfg1.N) : running V c 0 h =
    (k1_pay1 (k1_pay7 (k1_pay3 (F := Ideal))) (k1_pay8 (iblk1 V c 0 ⟨0, h⟩) (iblk1 V c 1 ⟨0, h⟩)),
     k1_pay2 (k1_pay6 (iblk1 V c 0 ⟨0, h⟩) (iblk1 V c 1 ⟨0, h⟩)) (k1_pay4 (F := Ideal))) := rfl
theorem running_succ (c : Dev nD) (n : ℕ) (h : n + 1 < cfg1.N) : running V c (n + 1) h =
    (k1_pay1 (k1_pay7 (running V c n (Nat.lt_of_succ_lt h)).1) (k1_pay8 (iblk1 V c 0 ⟨n + 1, h⟩) (iblk1 V c 1 ⟨n + 1, h⟩)),
     k1_pay2 (k1_pay6 (iblk1 V c 0 ⟨n + 1, h⟩) (iblk1 V c 1 ⟨n + 1, h⟩)) (running V c n (Nat.lt_of_succ_lt h)).2) := rfl

/-- After point `n` the sum buffer holds the sum of the first `n + 1` blocks' sums. -/
theorem running_sum (c : Dev nD) : ∀ (n : ℕ) (h : n < cfg1.N) (j : S1x1.Idx),
    (running V c n h).1 j = ∑ t ∈ Finset.range (n + 1), blockSum V c t
  | 0, h, j => by
    rw [running_zero, Finset.sum_range_one, blockSum_pos V c 0 h]
    dsimp only
    rw [sum_step, zero_sum, zero_add, cell j]
  | n + 1, h, j => by
    rw [running_succ, Finset.sum_range_succ, blockSum_pos V c (n + 1) h, ← running_sum c n (Nat.lt_of_succ_lt h) j]
    dsimp only
    rw [sum_step, cell j]

/-- After point `n` the count buffer holds the sum of the first `n + 1` blocks' counts. -/
theorem running_count (c : Dev nD) : ∀ (n : ℕ) (h : n < cfg1.N) (j : S1x1.Idx),
    (running V c n h).2 j = ∑ t ∈ Finset.range (n + 1), blockCount V c t
  | 0, h, j => by
    rw [running_zero, Finset.sum_range_one, blockCount_pos V c 0 h, cell j]
    dsimp only
    rw [count_step, zero_count, zero_add]
  | n + 1, h, j => by
    rw [running_succ, Finset.sum_range_succ, blockCount_pos V c (n + 1) h, ← running_count c n (Nat.lt_of_succ_lt h) j, cell j]
    dsimp only
    rw [count_step]

/-! ## A block's contributions in terms of the two matrices -/

/-- One triplet's contribution as the kernel arranges it, from the whole distance matrix `d` and similarity matrix `s`. -/
def kcontrib (d s : Fin 512 → Fin 512 → EReal) (r p n : Fin 512) : EReal :=
  (s r p * (1 - s r n)) * max (d r p - d r n) 0

/-- The two matrices the second region reads, by row and column. -/
abbrev dmat (c : Dev nD) (i j : Fin 512) : EReal := V c main_v0_0 (ix2 i j)
abbrev smat (c : Dev nD) (i j : Fin 512) : EReal := V c main_v0_1 (ix2 i j)

theorem contrib_blk (c : Dev nD) (t : ℕ) (ht : t < 64) (h : t < cfg1.N) (a : Fin 8) (p n : Fin 512) :
    contrib (iblk1 V c 0 ⟨t, h⟩) (iblk1 V c 1 ⟨t, h⟩) a p n
      = kcontrib (dmat V c) (smat V c) (Cert.Triplet.blockRow ⟨t, ht⟩ a) p n := by
  unfold contrib kcontrib
  rw [iblk1_dist V c ⟨t, h⟩ (ix2 a p) (ix2 (Cert.Triplet.blockRow ⟨t, ht⟩ a) p) rfl rfl,
    iblk1_dist V c ⟨t, h⟩ (ix2 a n) (ix2 (Cert.Triplet.blockRow ⟨t, ht⟩ a) n) rfl rfl,
    iblk1_sim V c ⟨t, h⟩ (ix2 a p) (ix2 (Cert.Triplet.blockRow ⟨t, ht⟩ a) p) rfl rfl,
    iblk1_sim V c ⟨t, h⟩ (ix2 a n) (ix2 (Cert.Triplet.blockRow ⟨t, ht⟩ a) n) rfl rfl]

theorem lt_N {t : ℕ} (ht : t < 64) : t < cfg1.N := by rw [show cfg1.N = 64 from N_1]; exact ht

theorem blockSum_eq (c : Dev nD) (t : ℕ) (ht : t < 64) :
    blockSum V c t = ∑ a : Fin 8, ∑ p : Fin 512, ∑ n : Fin 512, kcontrib (dmat V c) (smat V c) (Cert.Triplet.blockRow ⟨t, ht⟩ a) p n := by
  rw [blockSum_pos V c t (lt_N ht), k1_pay8_apply]
  exact Finset.sum_congr rfl fun a _ => Finset.sum_congr rfl fun p _ => Finset.sum_congr rfl fun n _ => contrib_blk V c t ht _ a p n

theorem blockCount_eq (c : Dev nD) (t : ℕ) (ht : t < 64) :
    blockCount V c t = ∑ a : Fin 8, ∑ p : Fin 512, ∑ n : Fin 512,
      Cert.Triplet.counts (kcontrib (dmat V c) (smat V c) (Cert.Triplet.blockRow ⟨t, ht⟩ a) p n) := by
  rw [blockCount_pos V c t (lt_N ht), k1_pay6_apply]
  exact Finset.sum_congr rfl fun a _ => Finset.sum_congr rfl fun p _ => Finset.sum_congr rfl fun n _ =>
    congrArg Cert.Triplet.counts (contrib_blk V c t ht _ a p n)

/-! ## The two output arrays of the second region -/

/-- The sum's array: all 512 × 512 × 512 contributions. -/
theorem sum_array (c : Dev nD) (j : S1x1.Idx) :
    (dat1 V c).arrAt 2 cfg1.N j = ∑ r : Fin 512, ∑ p : Fin 512, ∑ n : Fin 512, kcontrib (dmat V c) (smat V c) r p n := by
  rw [second_sum, running_sum]
  show ∑ t ∈ Finset.range 64, blockSum V c t = _
  rw [← Fin.sum_univ_eq_sum_range (fun t => blockSum V c t) 64, Cert.Triplet.sum_rows_blocks]
  exact Finset.sum_congr rfl fun t _ => blockSum_eq V c t.val t.isLt

/-- The count's array: how many of them exceed the threshold. -/
theorem count_array (c : Dev nD) (j : S1x1.Idx) :
    (dat1 V c).arrAt 3 cfg1.N j = ∑ r : Fin 512, ∑ p : Fin 512, ∑ n : Fin 512,
      Cert.Triplet.counts (kcontrib (dmat V c) (smat V c) r p n) := by
  rw [second_count, running_count]
  show ∑ t ∈ Finset.range 64, blockCount V c t = _
  rw [← Fin.sum_univ_eq_sum_range (fun t => blockCount V c t) 64, Cert.Triplet.sum_rows_blocks]
  exact Finset.sum_congr rfl fun t _ => blockCount_eq V c t.val t.isLt

end Cert.KernelIdeal.Total

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.DistanceKernel.lean ====
/-
  The distance kernel's payload read at an entry (i, j): the root of the clipped squared distance of rows i and j.

  The payload forms the squared distance as (|x_i|² + |x_j|²) - 2 <x_i, x_j>: the squared norms are lane sums kept as
  a column, transposed to a row, both spread over the square; the inner products are the product of x with its
  transpose. It then zeroes the diagonal, clips at zero and takes the root forced to zero where the square is zero.
  For real rows this is the sum of squared differences (the expansion law), and on the diagonal that sum is zero.
-/
import proofs.«154311_j50190987821742_2_alg».proof.Proof.Gen.KernelIdeal.Skeleton
import proofs.«154311_j50190987821742_2_alg».proof.Proof.TripletSpec
import proofs.«154311_j50190987821742_2_alg».proof.Proof.LibLayout
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.DistValue

open Cert.KernelIdeal Cert.KernelIdeal.Gen Idealize.ShloMosaic Idealize.ShloMosaic.ValueIdx Idealize.SL.Sem

/-- The dimension numbers of the product of two 512 x 512 matrices. -/
abbrev D512 : DotDims S512x512 S512x512 S512x512 := dot_S512x512_S512x512_S512x512_1_0_0_1_n_n

/-! ## The non-pointwise operations, each read at an index given by coordinates -/

/-- The lane sum of a square matrix at row i is the sum of that row's entries. -/
theorem laneSum_apply (y : FVec Ideal S512x512 .f32) (h : S512x512.Reduces [1] S512)
    (hφ : FTy.f32 = FTy.f32 ∨ FTy.f32 = FTy.bf16) (hacc : (0x00000000#32 : BitVec 32) = 0x00000000#32) (i : Fin 512) :
    multiReduction (F := Ideal) .add [1] S512 y 0x00000000#32 h hφ hacc (ix1 i) = ∑ k : Fin 512, y (ix2 i k) := by
  refine (Ideal.multiReduction_add_single y 0x00000000#32 h hφ hacc (ix1 i)).trans ?_
  refine Finset.sum_congr rfl fun k _ => congrArg y (funext fun a => Fin.ext ?_)
  match a with
  | ⟨0, _⟩ => rfl
  | ⟨1, _⟩ => rfl

/-- The operands' indices in the product at output index i and contraction index q: the left operand is read at
    (i 0, q) and the right operand at (q, i 1). The next four lemmas are these coordinates. -/
theorem lhs_0 (i : S512x512.Idx) (q : D512.contr.Idx) : (D512.lhsIdx i q 0).val = (i 0).val := by
  unfold DotDims.lhsIdx
  rw [dif_neg (show ¬(0 : Fin S512x512.rank) ∈ D512.lhsBatch by decide),
    dif_pos (show (0 : Fin S512x512.rank) ∈ D512.lhsNonContracting by decide)]
  rfl
theorem lhs_1 (i : S512x512.Idx) (q : D512.contr.Idx) : (D512.lhsIdx i q 1).val = (q ⟨0, by decide⟩).val :=
  D512.lhsIdx_val_of_single rfl i q
theorem rhs_0 (i : S512x512.Idx) (q : D512.contr.Idx) : (D512.rhsIdx i q 0).val = (q ⟨0, by decide⟩).val :=
  D512.rhsIdx_val_of_single rfl i q
theorem rhs_1 (i : S512x512.Idx) (q : D512.contr.Idx) : (D512.rhsIdx i q 1).val = (i 1).val := by
  unfold DotDims.rhsIdx
  rw [dif_neg (show ¬(1 : Fin S512x512.rank) ∈ D512.rhsBatch by decide),
    dif_pos (show (1 : Fin S512x512.rank) ∈ D512.rhsNonContracting by decide)]
  rfl

/-- The matrix product into a zero accumulator at (i, j) is the sum over k of a(i, k) b(k, j). -/
theorem matmul_apply_ix (a b : FVec Ideal S512x512 .bf16) (i j : Fin 512) :
    matmul D512 none a b (constant (F := Ideal) S512x512 .f32 0x00000000#32) (ix2 i j)
      = ∑ k : Fin 512, a (ix2 i k) * b (ix2 k j) := by
  simp only [matmul]
  rw [Ideal.matmul_constant_zero_apply, ← Equiv.sum_comp (contrEquiv1 D512 512 rfl rfl).symm]
  refine Finset.sum_congr rfl fun k _ => ?_
  have hk := contrEquiv1_symm_val D512 512 rfl rfl k
  have el : D512.lhsIdx (ix2 i j) ((contrEquiv1 D512 512 rfl rfl).symm k) = ix2 i k := funext fun c => Fin.ext (by
    match c with
    | ⟨0, _⟩ => exact lhs_0 _ _
    | ⟨1, _⟩ => exact (lhs_1 _ _).trans hk)
  have er : D512.rhsIdx (ix2 i j) ((contrEquiv1 D512 512 rfl rfl).symm k) = ix2 k j := funext fun c => Fin.ext (by
    match c with
    | ⟨0, _⟩ => exact (rhs_0 _ _).trans hk
    | ⟨1, _⟩ => exact rhs_1 _ _)
  rw [el, er]

/-- The two coordinate counters agree exactly on the diagonal. -/
theorem diag_apply (h0 : S512x512.Iotas .tc 32 [0]) (h1 : S512x512.Iotas .tc 32 [1]) (i j : Fin 512) :
    cmpi .eq (iota .tc S512x512 32 [0] h0) (iota .tc S512x512 32 [1] h1) (ix2 i j) = if i = j then 1#1 else 0#1 := by
  show IntOp.cmpi .eq (iota .tc S512x512 32 [0] h0 (ix2 i j)) (iota .tc S512x512 32 [1] h1 (ix2 i j)) = _
  rw [iota_single_apply, iota_single_apply]
  show BitVec.ofBool (BitVec.ofNat 32 i.val == BitVec.ofNat 32 j.val) = _
  have hi := i.isLt
  have hj := j.isLt
  by_cases hij : i = j
  · subst hij
    rw [if_pos rfl, beq_self_eq_true]
    rfl
  · rw [if_neg hij]
    have hne : ¬ (BitVec.ofNat 32 i.val = BitVec.ofNat 32 j.val) := by
      intro he
      apply hij
      apply Fin.ext
      have := congrArg BitVec.toNat he
      simp only [BitVec.toNat_ofNat] at this
      omega
    have hb : (BitVec.ofNat 32 i.val == BitVec.ofNat 32 j.val) = false := by
      rw [beq_eq_false_iff_ne]; exact hne
    rw [hb]
    rfl

/-- A column transposed to a row: entry (0, q) of the row is entry (q, 0) of the column. -/
theorem rowOfColumn_apply (v : FVec Ideal S512x1 .f32) (h : S512x1.Transposes [1, 0] S1x512) (q : Fin 512) :
    transpose S1x512 [1, 0] v h (ix2 (0 : Fin 1) q) = v (ix2 q (0 : Fin 1)) := transpose_ix2_apply v h 0 q

/-- A square matrix transposed: entry (p, q) is entry (q, p) of the operand. -/
theorem transposeSq_apply (v : FVec Ideal S512x512 .bf16) (h : S512x512.Transposes [1, 0] S512x512) (p q : Fin 512) :
    transpose S512x512 [1, 0] v h (ix2 p q) = v (ix2 q p) := transpose_ix2_apply v h p q

/-- The product of x with its own transpose at (i, j) is the inner product of rows i and j (the narrowing of the
    operands' format is the identity on ideal numbers). -/
theorem cross_apply (x : FVec Ideal S512x512 .f32) (hb : FTy.bits .bf16 < FTy.bits .f32)
    (ht : S512x512.Transposes [1, 0] S512x512) (i j : Fin 512) :
    matmul D512 none (truncf .bf16 x hb) (transpose S512x512 [1, 0] (truncf .bf16 x hb) ht)
      (constant (F := Ideal) S512x512 .f32 0x00000000#32) (ix2 i j) = ∑ k : Fin 512, x (ix2 i k) * x (ix2 j k) := by
  rw [matmul_apply_ix]
  refine Finset.sum_congr rfl fun k _ => ?_
  rw [transposeSq_apply]
  rfl

/-! ## The assembly -/

/-- A root taken entry by entry. -/
theorem sqrt_apply (v : FVec Ideal S512x512 .f32) (idx : S512x512.Idx) : sqrt v idx = Ideal.sqrt (v idx) := rfl

/-- A signed word as an ideal number is its integer. -/
theorem sitofp_word (b : BitVec 32) : FloatOps.sitofp (F := Ideal) .f32 b = (((b.toInt : ℤ) : ℝ) : EReal) := rfl

/-- The squared norms minus twice the inner product, zeroed on the diagonal and clipped at zero, is the clipped sum
    of squared differences when the rows are real: the expansion law off the diagonal, and on it both sides are 0. -/
theorem clip_eq (x : (⟨2, ![512, 512]⟩ : Shape).Idx → EReal) (hfin : ∀ j, ∃ r : ℝ, x j = (r : EReal)) (i j : Fin 512) :
    max (Scalar.select (if i = j then 1#1 else 0#1) (Ideal.ofBits .f32 0x00000000#32)
        (((∑ k : Fin 512, x (ix2 i k) * x (ix2 i k)) + ∑ k : Fin 512, x (ix2 j k) * x (ix2 j k))
          - Ideal.ofBits .f32 0x40000000#32 * ∑ k : Fin 512, x (ix2 i k) * x (ix2 j k)))
      (Ideal.ofBits .f32 0x00000000#32) = Cert.Triplet.sqd x i j := by
  rw [Ideal.ofBits_zero_f32, Cert.Triplet.ofBits_two]
  unfold Cert.Triplet.sqd
  by_cases hij : i = j
  · subst hij
    choose a ha using fun k : Fin 512 => hfin (ix2 i k)
    rw [if_pos rfl, select_one]
    simp only [ha, Cert.Triplet.sq_self, add_zero]
  · choose a ha using fun k : Fin 512 => hfin (ix2 i k)
    choose b hb using fun k : Fin 512 => hfin (ix2 j k)
    rw [if_neg hij, select_zero]
    simp only [ha, hb]
    rw [Cert.Triplet.sq_expand, zero_add, max_comm]

/-- The payload at (i, j) is the specification's distance of rows i and j, when every entry of x is real. -/
theorem k0_pay1_apply (x : (⟨2, ![512, 512]⟩ : Shape).Idx → EReal) (hfin : ∀ j, ∃ r : ℝ, x j = (r : EReal))
    (i j : Fin 512) :
    Cert.KernelIdeal.Gen.k0_pay1 (F := Ideal) x (ix2 i j) = Cert.Triplet.dist x i j := by
  have hq := clip_eq x hfin i j
  unfold k0_pay1
  simp only [mulf_apply, subf_apply, addf_apply, maximumf_apply, broadcast_apply, sitofp_apply, extui_apply,
    cmpf_apply, select_apply, sqrt_apply, Cert.LibLayout.broadcastTo_a1_ab_apply, broadcastTo_1b_ab_apply,
    Cert.LibLayout.shapeCast_a_a1_apply, Ideal.ofBits_def, Ideal.cmpf_def, sitofp_word]
  rw [diag_apply, cross_apply, rowOfColumn_apply, Cert.LibLayout.shapeCast_a_a1_apply, laneSum_apply, laneSum_apply]
  simp only [mulf_apply]
  rw [hq, Cert.Triplet.toInt_setWidth, Ideal.ofBits_zero_f32, Cert.Triplet.ofBits_one]
  rfl

end Cert.KernelIdeal.DistValue

end
-- ==== Proof.SimilarityKernel.lean ====
/-
  The kernel's similarity matrix, read at an entry: entry (i, j) is 1 when rows i and j of the integer label matrix
  have a positive inner product, and 0 otherwise.  The kernel converts the labels to numbers (exactly, whatever the
  narrow format's name), transposes, multiplies the two matrices into a zero accumulator, compares each entry with
  zero, widens the one-bit answer to a word and reads the word as a number.
-/
import proofs.«154311_j50190987821742_2_alg».proof.Proof.Gen.KernelIdeal.Skeleton
import proofs.«154311_j50190987821742_2_alg».proof.Proof.TripletSpec
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.SimValue

open Idealize.ShloMosaic Idealize.ShloMosaic.ValueIdx Cert.KernelIdeal Cert.KernelIdeal.Gen

/-- The left operand's row coordinate at output entry i is the entry's row. -/
theorem lhs_0 (i : S512x512.Idx) (q : dot_S512x24_S24x512_S512x512_1_0_0_1_n_n.contr.Idx) :
    (dot_S512x24_S24x512_S512x512_1_0_0_1_n_n.lhsIdx i q 0).val = (i 0).val := by
  unfold DotDims.lhsIdx
  rw [dif_neg (show ¬(0 : Fin S512x24.rank) ∈ dot_S512x24_S24x512_S512x512_1_0_0_1_n_n.lhsBatch by decide), dif_pos (show (0 : Fin S512x24.rank) ∈ dot_S512x24_S24x512_S512x512_1_0_0_1_n_n.lhsNonContracting by decide)]
  rfl

/-- The left operand's column coordinate is the contraction coordinate. -/
theorem lhs_1 (i : S512x512.Idx) (q : dot_S512x24_S24x512_S512x512_1_0_0_1_n_n.contr.Idx) :
    (dot_S512x24_S24x512_S512x512_1_0_0_1_n_n.lhsIdx i q 1).val = (q ⟨0, by decide⟩).val :=
  dot_S512x24_S24x512_S512x512_1_0_0_1_n_n.lhsIdx_val_of_single rfl i q

/-- The right operand's row coordinate is the contraction coordinate. -/
theorem rhs_0 (i : S512x512.Idx) (q : dot_S512x24_S24x512_S512x512_1_0_0_1_n_n.contr.Idx) :
    (dot_S512x24_S24x512_S512x512_1_0_0_1_n_n.rhsIdx i q 0).val = (q ⟨0, by decide⟩).val :=
  dot_S512x24_S24x512_S512x512_1_0_0_1_n_n.rhsIdx_val_of_single rfl i q

/-- The right operand's column coordinate at output entry i is the entry's column. -/
theorem rhs_1 (i : S512x512.Idx) (q : dot_S512x24_S24x512_S512x512_1_0_0_1_n_n.contr.Idx) :
    (dot_S512x24_S24x512_S512x512_1_0_0_1_n_n.rhsIdx i q 1).val = (i 1).val := by
  unfold DotDims.rhsIdx
  rw [dif_neg (show ¬(1 : Fin S24x512.rank) ∈ dot_S512x24_S24x512_S512x512_1_0_0_1_n_n.rhsBatch by decide), dif_pos (show (1 : Fin S24x512.rank) ∈ dot_S512x24_S24x512_S512x512_1_0_0_1_n_n.rhsNonContracting by decide)]
  rfl

/-- A [512, 24] by [24, 512] product into a zero accumulator, at entry (i, j): the sum over the 24 columns k of
    a (i, k) times b (k, j). -/
theorem matmul_entry {φ₁ φ₂ : FTy} (a : FVec Ideal S512x24 φ₁) (b : FVec Ideal S24x512 φ₂) (i j : Fin 512) :
    matmul dot_S512x24_S24x512_S512x512_1_0_0_1_n_n none a b (constant S512x512 .f32 0x00000000#32) (ix2 i j)
      = ∑ k : Fin 24, a (ix2 i k) * b (ix2 k j) := by
  simp only [matmul]
  rw [Ideal.matmul_constant_zero_apply, ← Equiv.sum_comp (ValueIdx.contrEquiv1 dot_S512x24_S24x512_S512x512_1_0_0_1_n_n 24 rfl rfl).symm]
  refine Finset.sum_congr rfl fun k _ => ?_
  have hk := ValueIdx.contrEquiv1_symm_val dot_S512x24_S24x512_S512x512_1_0_0_1_n_n 24 rfl rfl k
  have el : dot_S512x24_S24x512_S512x512_1_0_0_1_n_n.lhsIdx (ix2 i j) ((ValueIdx.contrEquiv1 dot_S512x24_S24x512_S512x512_1_0_0_1_n_n 24 rfl rfl).symm k) = ix2 i k := funext fun c => Fin.ext (by
    match c with
    | ⟨0, _⟩ => exact lhs_0 _ _
    | ⟨1, _⟩ => exact (lhs_1 _ _).trans hk)
  have er : dot_S512x24_S24x512_S512x512_1_0_0_1_n_n.rhsIdx (ix2 i j) ((ValueIdx.contrEquiv1 dot_S512x24_S24x512_S512x512_1_0_0_1_n_n 24 rfl rfl).symm k) = ix2 k j := funext fun c => Fin.ext (by
    match c with
    | ⟨0, _⟩ => exact (rhs_0 _ _).trans hk
    | ⟨1, _⟩ => exact rhs_1 _ _)
  rw [el, er]

/-- The transposed label matrix at (k, j) is label (j, k) as an integer. -/
theorem transposed_entry (l : (⟨2, ![512, 24]⟩ : Shape).Idx → BitVec 32) (k : Fin 24) (j : Fin 512) :
    transpose S24x512 [1, 0] (sitofp .bf16 l : FVec Ideal S512x24 .bf16) transposes_S512x24_p1_0_S24x512 (ix2 k j)
      = (((l (ix2 j k)).toInt : ℝ) : EReal) :=
  (transpose_ix2_apply (sitofp .bf16 l : FVec Ideal S512x24 .bf16) transposes_S512x24_p1_0_S24x512 k j).trans rfl

/-- Entry (i, j) of the kernel's similarity matrix is the specification's similarity of rows i and j. -/
theorem k0_pay2_apply (l : (⟨2, ![512, 24]⟩ : Shape).Idx → BitVec 32) (i j : Fin 512) :
    k0_pay2 (F := Ideal) l (ix2 i j) = Cert.Triplet.sim l i j := by
  unfold k0_pay2
  simp only [sitofp_apply, extui_apply, cmpf_apply, broadcast_apply, matmul_entry, transpose_ix2_apply]
  show ((((Ideal.cmp .ogt _ (Ideal.ofBits .f32 0x00000000#32)).setWidth 32).toInt : ℝ) : EReal) = _
  rw [Cert.Triplet.toInt_setWidth, Ideal.ofBits_zero_f32]
  unfold Cert.Triplet.sim
  refine congrArg (fun s => Cert.Triplet.bit (Ideal.cmp .ogt s 0)) (Finset.sum_congr rfl fun k _ => ?_)
  exact congrArg ((((l (ix2 i k)).toInt : ℝ) : EReal) * ·) (transposed_entry l k j)

end Cert.KernelIdeal.SimValue

end
-- ==== Proof.KernelValue.lean ====
import proofs.«154311_j50190987821742_2_alg».proof.Proof.KernelRun
import proofs.«154311_j50190987821742_2_alg».proof.Proof.KernelTotal
import proofs.«154311_j50190987821742_2_alg».proof.Proof.DistanceKernel
import proofs.«154311_j50190987821742_2_alg».proof.Proof.SimilarityKernel

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Arrays Cert.KernelIdeal.Total

variable (m : (ℓ : Loc nD τ sig) → Buf (Elt Ideal) ℓ) (ρ : Dev nD → PrngReg)

/-- With 0/1 similarities the kernel's arrangement of a contribution — mask times hinge — is the hinge of the masked
    gap: a 0/1 factor moves inside `max · 0`, and `1 · d = d`. -/
theorem kcontrib_eq (d s : Fin 512 → Fin 512 → EReal) (hs : ∀ i j, s i j = 0 ∨ s i j = 1) (r p n : Fin 512) :
    kcontrib d s r p n = Cert.Triplet.trip d s r p n := by
  unfold kcontrib Cert.Triplet.trip
  rw [one_mul]
  exact Cert.Triplet.mask_hinge (Cert.Triplet.mask_cases (hs r p) (hs r n))

/-- The matrix of distances the second region reads is the first region's distance payload of the float argument. -/
theorem dmat_eq (c : Dev nD) (hfin : ∀ j, ∃ r : ℝ, m ((c.tc : Thread nD τ).loc main_arg0) j = (r : EReal)) :
    dmat (V1 m ρ) c = Cert.Triplet.dist (m ((c.tc : Thread nD τ).loc main_arg0)) := by
  funext i j
  show W1 m ρ c (Proc.devRef .tc main_v0_0) (ix2 i j) = _
  rw [show W1 m ρ c (Proc.devRef .tc main_v0_0) = (dat0 (V0 m ρ) c).arrAt 2 cfg0.N from W1_arr m ρ c 2, first_dist]
  exact Cert.KernelIdeal.DistValue.k0_pay1_apply _ hfin i j

/-- The matrix of similarities it reads is the first region's similarity payload of the labels. -/
theorem smat_eq (c : Dev nD) : smat (V1 m ρ) c = Cert.Triplet.sim (m ((c.tc : Thread nD τ).loc main_arg1)) := by
  funext i j
  show W1 m ρ c (Proc.devRef .tc main_v0_1) (ix2 i j) = _
  rw [show W1 m ρ c (Proc.devRef .tc main_v0_1) = (dat0 (V0 m ρ) c).arrAt 3 cfg0.N from W1_arr m ρ c 3, first_sim]
  exact Cert.KernelIdeal.SimValue.k0_pay2_apply _ i j

/-- A 1×1 array reshaped to a scalar reads its one cell. -/
theorem scalar_of_cell (v : S1x1.Idx → EReal) (j : S_.Idx) : shapeCast S_ v shapeCasts_S1x1_S_ j = v (ix2 (0 : Fin 1) (0 : Fin 1)) :=
  shapeCast_apply v shapeCasts_S1x1_S_ j _ (by
    have h1 := (S1x1.rowMajor (ix2 (0 : Fin 1) (0 : Fin 1))).isLt
    have h2 := (S_.rowMajor j).isLt
    have e1 : S1x1.numel = 1 := by decide
    have e2 : S_.numel = 1 := by decide
    omega)

/-- THE KERNEL'S RESULT: the loss of the distance matrix of the float argument and the similarity matrix of the labels,
    when every entry of the float argument is a real number. -/
theorem result_eq (c : Dev nD) (hfin : ∀ j, ∃ r : ℝ, m ((c.tc : Thread nD τ).loc main_arg0) j = (r : EReal)) :
    W3 m ρ c (Proc.devRef .tc main_v5)
      = fun _ => Cert.Triplet.loss (Cert.Triplet.dist (m ((c.tc : Thread nD τ).loc main_arg0)))
          (Cert.Triplet.sim (m ((c.tc : Thread nD τ).loc main_arg1))) := by
  rw [Cert.KernelIdeal.RunValue.W3_result]
  funext j
  show Ideal.div (shapeCast S_ ((dat1 (V1 m ρ) c).arrAt 2 cfg1.N : S1x1.Idx → EReal) shapeCasts_S1x1_S_ j)
      ((shapeCast S_ ((dat1 (V1 m ρ) c).arrAt 3 cfg1.N : S1x1.Idx → EReal) shapeCasts_S1x1_S_ j : EReal)
        + (Ideal.ofBits .f32 0x24E69595#32 : EReal)) = _
  rw [scalar_of_cell, scalar_of_cell, sum_array, count_array, dmat_eq m ρ c hfin, smat_eq m ρ c]
  unfold Cert.Triplet.loss
  rw [zero_add, zero_add]
  have hs := Cert.Triplet.sim_cases (m ((c.tc : Thread nD τ).loc main_arg1))
  simp only [kcontrib_eq _ _ hs]
  rfl

end Cert.KernelIdeal.Value

end
-- ==== Proof.RefTotal.lean ====
import proofs.«154311_j50190987821742_2_alg».proof.Proof.ReadPatched
import proofs.«154311_j50190987821742_2_alg».proof.Proof.TripletSpec

noncomputable section

namespace Cert.ReferenceIdeal.Total

open Idealize.ShloMosaic Idealize.ShloMosaic.ValueIdx
open Cert.ReferenceIdeal Cert.ReferenceIdeal.ReadP

/-! ## The reference's loss, from its own distance and similarity matrices

The reference broadcasts its distance matrix `d` and its similarity matrix `s` to rank 3 twice each — once along the
last axis (the entry for the pair (i, p)) and once along the middle axis (the entry for the pair (i, n)) —, forms
`max 0 ((s i p · (1 − s i n)) · (d i p − 1 · d i n))` entry by entry, and sums all 512³ entries and all the flags
"entry above the threshold". -/

/-- The reference's distance between rows `i` and `j`. -/
abbrev refDist (x : (⟨S512x512, .f32⟩ : BufTy).Contents (Elt Ideal)) (i j : Fin 512) : EReal := val_main_v17 (F := Ideal) x (ix2 i j)
/-- The reference's similarity of rows `i` and `j`. -/
abbrev refSim (l : (⟨S512x24, .i32⟩ : BufTy).Contents (Elt Ideal)) (i j : Fin 512) : EReal := val_main_v23 (F := Ideal) l (ix2 i j)

/-- The two broadcasts along the last axis read the pair (i, p); the two along the middle axis read the pair (i, n). -/
theorem pos_sim (i p n : Fin 512) : idx_main_v24 (idx_main_v28 (ix3 i p n)) = ix2 i p :=
  funext fun a => Fin.ext (by match a with | ⟨0, _⟩ => rfl | ⟨1, _⟩ => rfl)
theorem neg_sim (i p n : Fin 512) : idx_main_v25 (idx_main_v29 (ix3 i p n)) = ix2 i n :=
  funext fun a => Fin.ext (by match a with | ⟨0, _⟩ => rfl | ⟨1, _⟩ => rfl)
theorem pos_dist (i p n : Fin 512) : idx_main_v31 (idx_main_v35 (ix3 i p n)) = ix2 i p :=
  funext fun a => Fin.ext (by match a with | ⟨0, _⟩ => rfl | ⟨1, _⟩ => rfl)
theorem neg_dist (i p n : Fin 512) : idx_main_v32 (idx_main_v36 (ix3 i p n)) = ix2 i n :=
  funext fun a => Fin.ext (by match a with | ⟨0, _⟩ => rfl | ⟨1, _⟩ => rfl)

/-- The clipped, masked gap at the triplet (i, p, n) is that triplet's contribution. -/
theorem hinge_apply (x : (⟨S512x512, .f32⟩ : BufTy).Contents (Elt Ideal)) (l : (⟨S512x24, .i32⟩ : BufTy).Contents (Elt Ideal))
    (i p n : Fin 512) :
    val_main_v39 (F := Ideal) x l (ix3 i p n) = Cert.Triplet.trip (refDist x) (refSim l) i p n := by
  rw [val_main_v39_apply, val_main_call1_v1_apply, val_main_call1_v0_apply, val_main_cst_7_apply, val_main_v38_apply,
    val_main_v30_apply, val_main_v28_apply, val_main_v24_apply, val_main_v29_apply, val_main_v27_apply, val_main_v26_apply,
    val_main_cst_5_apply, val_main_v25_apply, val_main_v37_apply, val_main_v35_apply, val_main_v31_apply, val_main_v36_apply,
    val_main_v34_apply, val_main_v33_apply, val_main_cst_6_apply, val_main_v32_apply, pos_sim, neg_sim, pos_dist, neg_dist]
  simp only [Ideal.maximumf_def, Ideal.mulf_def, Ideal.subf_def, Ideal.ofBits_def, Cert.Triplet.ofBits_one, Ideal.ofBits_zero_f32]
  rfl

/-- The flag "above the threshold" at the triplet (i, p, n). -/
theorem flag_apply (x : (⟨S512x512, .f32⟩ : BufTy).Contents (Elt Ideal)) (l : (⟨S512x24, .i32⟩ : BufTy).Contents (Elt Ideal))
    (i p n : Fin 512) :
    val_main_v42 (F := Ideal) x l (ix3 i p n) = Cert.Triplet.counts (Cert.Triplet.trip (refDist x) (refSim l) i p n) := by
  rw [val_main_v42_apply, val_main_v41_apply, val_main_v40_apply, val_main_cst_8_apply, hinge_apply]
  rfl

/-- The reference's result is the loss of its distance and similarity matrices. -/
theorem result_apply (x : (⟨S512x512, .f32⟩ : BufTy).Contents (Elt Ideal)) (l : (⟨S512x24, .i32⟩ : BufTy).Contents (Elt Ideal))
    (j : S_.Idx) : val_main_v46 (F := Ideal) x l j = Cert.Triplet.loss (refDist x) (refSim l) := by
  rw [val_main_v46_apply, val_main_v44_apply, val_main_v45_apply, val_main_v43_apply, val_main_cst_10_apply, val_main_cst_9_apply,
    val_main_cst_11_apply, Cert.Triplet.sum_idx3, Cert.Triplet.sum_idx3]
  simp only [hinge_apply, flag_apply, Ideal.hostDivf_def, Ideal.addf_def, Ideal.ofBits_def, Ideal.ofBits_zero_f32]
  rfl

end Cert.ReferenceIdeal.Total

end
-- ==== Proof.DistanceRef.lean ====
/-
  The reference's distance stage read at an entry (i, j): the root of the clipped squared distance of rows i and j.

  The reference spreads x over a cube as x(i, k) and as x(j, k), subtracts, squares, sums over k from zero, clips at
  zero, and takes the root forced to zero where the square is zero: entry by entry that is the specification's
  distance, once the composed index maps are identified with (i, k) and (j, k).
-/
import proofs.«154311_j50190987821742_2_alg».proof.Proof.ReadPatched
import proofs.«154311_j50190987821742_2_alg».proof.Proof.TripletSpec
import Idealize.ShloMosaic.Lib.Pipeline.Value
import Idealize.ShloMosaic.Lib.ValueIdx
import Idealize.ShloMosaic.PureOps.Ideal.Laws

noncomputable section

namespace Cert.ReferenceIdeal.DistValue

open Cert.ReferenceIdeal Cert.ReferenceIdeal.ReadP Idealize.ShloMosaic Idealize.ShloMosaic.ValueIdx

/-- The first operand of the difference at cube index (i, j, k) is x at (i, k). -/
theorem idx_left (i j k : Fin 512) :
    idx_main_v0 (idx_main_v2 (idx_main_v6 (ix2 i j) k)) = ix2 i k :=
  funext fun a => Fin.ext (by match a with | ⟨0, _⟩ => rfl | ⟨1, _⟩ => rfl)

/-- The second operand of the difference at cube index (i, j, k) is x at (j, k). -/
theorem idx_right (i j k : Fin 512) :
    idx_main_v1 (idx_main_v3 (idx_main_v6 (ix2 i j) k)) = ix2 j k :=
  funext fun a => Fin.ext (by match a with | ⟨0, _⟩ => rfl | ⟨1, _⟩ => rfl)

/-- The clipped sum of squared differences at (i, j) is the specification's clipped squared distance. -/
theorem val_main_v7_apply_ix (x : (⟨2, ![512, 512]⟩ : Shape).Idx → EReal) (i j : Fin 512) :
    val_main_v7 (F := Ideal) x (ix2 i j) = Cert.Triplet.sqd x i j := by
  rw [val_main_v7_apply, val_main_call0_v1_apply, val_main_call0_v0_apply, val_main_cst_0_apply, val_main_v6_apply,
    val_main_cst_apply]
  simp only [val_main_v5_apply, val_main_v4_apply, val_main_v2_apply, val_main_v3_apply, val_main_v0_apply,
    val_main_v1_apply, idx_left, idx_right, Ideal.ofBits_def, Ideal.ofBits_zero_f32, Ideal.maximumf_def,
    Ideal.mulf_def, Ideal.subf_def]
  rfl

/-- The reference's distance stage at (i, j) is the specification's distance of rows i and j. -/
theorem val_main_v17_apply_ix (x : (⟨2, ![512, 512]⟩ : Shape).Idx → EReal) (i j : Fin 512) :
    val_main_v17 (F := Ideal) x (ix2 i j) = Cert.Triplet.dist x i j := by
  rw [val_main_v17_apply, val_main_v14_apply, val_main_v13_apply, val_main_v16_apply, val_main_v12_apply,
    val_main_v10_apply, val_main_v9_apply, val_main_v15_apply, val_main_v11_apply, val_main_v8_apply,
    val_main_cst_3_apply, val_main_cst_2_apply, val_main_cst_1_apply, val_main_v7_apply_ix]
  simp only [Ideal.ofBits_def, Ideal.ofBits_zero_f32, Cert.Triplet.ofBits_one, Ideal.mulf_def, Ideal.subf_def,
    Ideal.addf_def, Ideal.hostUnary_sqrt_def, Ideal.cmpf_def]
  rfl

end Cert.ReferenceIdeal.DistValue

end
-- ==== Proof.SimilarityRef.lean ====
/-
  The reference's similarity matrix, read at an entry: entry (i, j) is 1 when rows i and j of the integer label
  matrix have a positive inner product, and 0 otherwise.  The reference converts the labels to numbers, transposes,
  contracts over the 24 label columns, compares the sum with zero and reads the one-bit answer as a number.
-/
import proofs.«154311_j50190987821742_2_alg».proof.Proof.ReadPatched
import proofs.«154311_j50190987821742_2_alg».proof.Proof.TripletSpec
import Idealize.ShloMosaic.Lib.ValueIdx
import Idealize.ShloMosaic.PureOps.Ideal
import Idealize.ShloMosaic.PureOps.Ideal.Laws

noncomputable section

namespace Cert.ReferenceIdeal.SimValue

open Idealize.ShloMosaic Idealize.ShloMosaic.ValueIdx Cert.ReferenceIdeal Cert.ReferenceIdeal.ReadP

/-- The left factor of the contraction at entry (i, j), column k, is label (i, k) as an integer. -/
theorem lhs_factor (l : (⟨2, ![512, 24]⟩ : Shape).Idx → BitVec 32) (i j : Fin 512) (k : Fin 24) :
    val_main_v18 (F := Ideal) l (lidx_main_v20 (ix2 i j) k) = (((l (ix2 i k)).toInt : ℝ) : EReal) := by
  have e : lidx_main_v20 (ix2 i j) k = ix2 i k := funext fun a => by
    match a with
    | ⟨0, _⟩ => rfl
    | ⟨1, _⟩ => rfl
  rw [e]; rfl

/-- The right factor, read through the transpose, is label (j, k) as an integer. -/
theorem rhs_factor (l : (⟨2, ![512, 24]⟩ : Shape).Idx → BitVec 32) (i j : Fin 512) (k : Fin 24) :
    val_main_v19 (F := Ideal) l (ridx_main_v20 (ix2 i j) k) = (((l (ix2 j k)).toInt : ℝ) : EReal) := by
  rw [val_main_v19_apply]
  have e : idx_main_v19 (ridx_main_v20 (ix2 i j) k) = ix2 j k := funext fun a => by
    match a with
    | ⟨0, _⟩ => rfl
    | ⟨1, _⟩ => rfl
  rw [e]; rfl

/-- Entry (i, j) of the reference's similarity matrix is the specification's similarity of rows i and j. -/
theorem val_main_v23_apply_ix (l : (⟨2, ![512, 24]⟩ : Shape).Idx → BitVec 32) (i j : Fin 512) :
    val_main_v23 (F := Ideal) l (ix2 i j) = Cert.Triplet.sim l i j := by
  rw [val_main_v23_apply, val_main_v22_apply, val_main_v20_apply, val_main_v21_apply, val_main_cst_4_apply]
  simp only [lhs_factor, rhs_factor]
  show Cert.Triplet.bit (Ideal.cmp .ogt _ (Ideal.ofBits .f32 0x00000000#32)) = _
  rw [Ideal.ofBits_zero_f32]
  rfl

end Cert.ReferenceIdeal.SimValue

end
-- ==== Proof.FiniteRows.lean ====
/-
  From the precondition to real entries.  The precondition says that every entry of the float argument has an
  absolute value below plus infinity (the conjunction over all entries equals one).  On the extended reals an
  element whose absolute value is below the top element is neither the top nor the bottom element: it is a real
  number.
-/
import proofs.«154311_j50190987821742_2_alg».proof.Defs
import proofs.«154311_j50190987821742_2_alg».proof.Proof.TripletSpec
import Idealize.ShloMosaic.Lib.ReduceAll
import Idealize.ShloMosaic.Lib.ValueIdx
import Idealize.ShloMosaic.Lib.Pipeline.Value
import Idealize.ShloMosaic.PureOps.Ideal

noncomputable section

namespace Cert.FiniteRows

open Idealize.ShloMosaic Idealize.ShloMosaic.ValueIdx Cert.Pre_finite_inputs

variable [Cert.Pre_finite_inputs.Facts]

/-- The rank-0 index set has one element. -/
instance : Subsingleton S_.Idx := ⟨fun a b => funext fun d => d.elim0⟩

/-- An extended real whose absolute value is strictly below the top element is a real number. -/
theorem real_of_abs_lt_top (v : EReal) (h : Ideal.cmp .olt (max v (-v)) ⊤ = 1#1) : ∃ r : ℝ, v = (r : EReal) := by
  induction v using EReal.rec with
  | bot => exfalso; simp [Ideal.cmp] at h
  | coe r => exact ⟨r, rfl⟩
  | top => exfalso; simp [Ideal.cmp] at h

/-- Under the precondition every entry of the float argument is a real number. -/
theorem real_of_pre (x : (⟨2, ![512, 512]⟩ : Shape).Idx → EReal) (l : (⟨2, ![512, 24]⟩ : Shape).Idx → BitVec 32)
    (h : Cert.Pre_finite_inputs.fn (F := Ideal) x l = fun _ => 1#1) : ∀ j, ∃ r : ℝ, x j = (r : EReal) := by
  intro j
  have h0 := congrFun h ValueIdx.ix0
  dsimp only [Cert.Pre_finite_inputs.fn] at h0
  have hj := Host.reduce_andi_all _ _ _ _ _ h0 j
  have hb : broadcastInDim S512x512 ![] Facts.bcast_S_S512x512 (constant (F := Ideal) S_ .f32 0x7F800000#32) j = ⊤ := by
    rw [broadcastInDim_apply _ _ _ j ValueIdx.ix0 (fun a => a.elim0)]
    exact Cert.Triplet.ofBits_inf
  apply real_of_abs_lt_top
  rw [← hb]
  exact hj

end Cert.FiniteRows

end
-- ==== Proof.lean ====
/-
  The certificate of the triplet-margin loss kernel against its reference, over the extended reals.

  Both programs compute, from a 512 × 512 float matrix `x` and a 512 × 24 integer label matrix `l`, the loss

      ( ∑ over (i, p, n) of  max 0 ((s i p · (1 − s i n)) · (d i p − d i n)) )
        / ( #{ contributions above 1e-16 } + 1e-16 ),

  where `d` is the matrix of pairwise distances of the rows of `x` (the root of the clipped squared distance, exactly
  zero where the square is zero) and `s i j` is 1 when rows `i` and `j` of `l` have a positive inner product.

  The kernel does it in two regions. The first computes `d` through `|a|² + |b|² − 2 a·b` with a zeroed diagonal, and
  `s` by a matrix product. The second walks 64 blocks of 8 anchor rows, forms each block's 8 × 512 × 512 contributions
  as mask · hinge, reduces them one axis at a time, and accumulates the block sums and counts in two cells; the host
  divides. The reference forms all 512³ contributions as hinge of (mask · gap) and sums them at once.

  The two agree because (1) for real rows `∑ (a − b)² = ∑ a² + ∑ b² − 2 ∑ a b`, which is where the precondition that
  every entry of `x` is finite is used, and a row's distance to itself is zero; (2) the similarities are 0 or 1, so the
  mask moves inside the hinge; (3) addition of extended reals is commutative and associative, so the sum over 64 blocks
  of 8 rows, axis by axis, is the sum over all triplets.
-/
import proofs.«154311_j50190987821742_2_alg».proof.Defs
import proofs.«154311_j50190987821742_2_alg».proof.Proof.Gen.Kernel
import proofs.«154311_j50190987821742_2_alg».proof.Proof.Gen.Kernel.Frame
import proofs.«154311_j50190987821742_2_alg».proof.Proof.Gen.KernelIdeal
import proofs.«154311_j50190987821742_2_alg».proof.Proof.Gen.KernelIdeal.Frame
import proofs.«154311_j50190987821742_2_alg».proof.Proof.Gen.ReferenceIdeal
import proofs.«154311_j50190987821742_2_alg».proof.Proof.Gen.Pre_finite_inputs
import proofs.«154311_j50190987821742_2_alg».proof.Proof.KernelValue
import proofs.«154311_j50190987821742_2_alg».proof.Proof.RefTotal
import proofs.«154311_j50190987821742_2_alg».proof.Proof.DistanceRef
import proofs.«154311_j50190987821742_2_alg».proof.Proof.SimilarityRef
import proofs.«154311_j50190987821742_2_alg».proof.Proof.FiniteRows
import Idealize.ShloMosaic.Adequacy
import Idealize.ShloMosaic.Init

noncomputable section

namespace Cert.Proof

open Idealize.ShloMosaic Idealize.ShloMosaic.ValueIdx Idealize.SL.Sem

/-- The reference's result, at `Ideal`, is the loss of the distance matrix of its float argument and the similarity
    matrix of its labels: its own two matrices are those, entry by entry. -/
theorem reference_result (x : (⟨2, ![512, 512]⟩ : Shape).Idx → EReal) (l : (⟨2, ![512, 24]⟩ : Shape).Idx → BitVec 32) :
    Cert.ReferenceIdeal.ReadP.val_main_v46 (F := Ideal) x l
      = fun _ => Cert.Triplet.loss (Cert.Triplet.dist x) (Cert.Triplet.sim l) := by
  funext j
  rw [Cert.ReferenceIdeal.Total.result_apply]
  have hd : Cert.ReferenceIdeal.Total.refDist x = Cert.Triplet.dist x :=
    funext fun i => funext fun k => Cert.ReferenceIdeal.DistValue.val_main_v17_apply_ix x i k
  have hs : Cert.ReferenceIdeal.Total.refSim l = Cert.Triplet.sim l :=
    funext fun i => funext fun k => Cert.ReferenceIdeal.SimValue.val_main_v23_apply_ix l i k
  rw [hd, hs]

theorem frame_kernel : Cert.frame_Kernel (hKernel := Cert.Kernel.Gen.facts) (hPre_finite_inputs := Cert.Pre_finite_inputs.Gen.facts) :=
  fun m ρ _ => Cert.Kernel.Gen.frame m ρ

theorem frame_kernel_ideal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference_ideal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the loss of the same two matrices of arguments that agree. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => fun _ => Cert.Triplet.loss
      (Cert.Triplet.dist (m ((c.tc : Thread Cert.KernelIdeal.nD Cert.KernelIdeal.τ).loc Cert.KernelIdeal.main_arg0)))
      (Cert.Triplet.sim (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2.1, (h c).2.2⟩)
      (Cert.KernelIdeal.RunValue.run_result (F := Ideal) m ρ)
    exact Cert.KernelIdeal.Value.result_eq m ρ c
      (Cert.FiniteRows.real_of_pre _ _ (hpre c))
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v46_eq, (hagree c).1, (hagree c).2]
    exact reference_result _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
